-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 28
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S4096x1024.size a
  hwx0_15 : ∀ i : grid0.Coords, EltTy.bits .f32 = 32 ∨ (Rect.block (s := S4096x1024) S256x1024.size (cc0_transform_15 i) (hinb0_15 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S256x1024.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LstmSpec.lean ====
/-
  The LSTM cell both programs compute, as one function of the fifteen argument arrays, index by index, over the
  extended reals.  For a batch row `r` and a hidden column `j`, a gate's pre-activation is

      pre x h W U b r j = (Σ_k x[r,k]·W[k,j] + Σ_k h[r,k]·U[k,j]) + b[j]

  and the new hidden state is

      o · tanh (f · c[r,j] + i · tanh g),   f = σ(pre_f), i = σ(pre_i), g = pre_c, o = σ(pre_o),

  with σ y = 1 / (1 + e^(-y)).  The literal `1.0` is kept as the word both programs print; that it is the real
  number one is proved once (`one_eq`), which makes σ the library's `Ideal.logistic`.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- A batch of rows: 4096 × 1024 extended reals. -/
abbrev Act : Type := (⟨2, ![4096, 1024]⟩ : Shape).Idx → EReal
/-- A square weight matrix: 1024 × 1024. -/
abbrev Mat : Type := (⟨2, ![1024, 1024]⟩ : Shape).Idx → EReal
/-- A bias vector: 1024 entries. -/
abbrev Bias : Type := (⟨1, ![1024]⟩ : Shape).Idx → EReal

/-- The float word of `1.0`, read at the extended reals. -/
def one : EReal := Ideal.ofBits .f32 0x3F800000#32

/-- It is the number one. -/
theorem one_eq : one = 1 := by
  unfold one
  simp [Ideal.ofBits, Ideal.ieee, -EReal.coe_mul]
  norm_num

/-- The logistic function as the reference spells it: `1 / (1 + e^(-y))` with the printed word for `1`. -/
def sigm (y : EReal) : EReal := Ideal.div one (one + Ideal.exp (-y))

/-- It is the library's logistic function. -/
theorem logistic_eq (y : EReal) : Ideal.logistic y = sigm y := by
  unfold sigm Ideal.logistic
  rw [one_eq]

/-- A gate's pre-activation at row `r`, column `j`: the two matrix products' entries added, then the bias. -/
def pre (x h : Act) (W U : Mat) (b : Bias) (r : Fin 4096) (j : Fin 1024) : EReal :=
  ((∑ k : Fin 1024, x (ix2 r k) * W (ix2 k j)) + (∑ k : Fin 1024, h (ix2 r k) * U (ix2 k j))) + b (ix1 j)

/-- One entry of the new hidden state from the four pre-activations and the old cell state. -/
def step (f i g o c : EReal) : EReal :=
  sigm o * Ideal.tanh (sigm f * c + sigm i * Ideal.tanh g)

/-- The new hidden state, entry by entry. -/
def cell (x h c : Act) (Wf Wi Wc Wo Uf Ui Uc Uo : Mat) (bf bi bc bo : Bias) : Act := fun idx =>
  step (pre x h Wf Uf bf (idx 0) (idx 1)) (pre x h Wi Ui bi (idx 0) (idx 1)) (pre x h Wc Uc bc (idx 0) (idx 1))
    (pre x h Wo Uo bo (idx 0) (idx 1)) (c idx)

/-- At an index given by its coordinates. -/
theorem cell_ix2 (x h c : Act) (Wf Wi Wc Wo Uf Ui Uc Uo : Mat) (bf bi bc bo : Bias) (r : Fin 4096) (j : Fin 1024) :
    cell x h c Wf Wi Wc Wo Uf Ui Uc Uo bf bi bc bo (ix2 r j)
      = step (pre x h Wf Uf bf r j) (pre x h Wi Ui bi r j) (pre x h Wc Uc bc r j) (pre x h Wo Uo bo r j) (c (ix2 r j)) := rfl

end Cert.Lstm

end
-- ==== Proof.LstmRef.lean ====
/-
  The reference's result is the LSTM cell of its arguments.

  The reference lays the four gates' weight matrices side by side (W = [W_f | W_i | W_c | W_o], likewise U and b), forms
  x·W + h·U + b once, and cuts the four gates back out as column ranges 1024·g … 1024·g + 1023.  An entry of the wide
  product in column 1024·g + j only meets column j of the g-th matrix: the contraction runs over the rows of W, and the
  concatenation is along its columns.  So each gate's slice is that gate's own pre-activation, and the rest of the
  reference is the cell's arithmetic entry by entry.
-/
import proofs.«148964_j33526514712649_2_alg».proof.Proof.Gen.ReferenceIdeal.Read
import proofs.«148964_j33526514712649_2_alg».proof.Proof.LstmSpec
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx Cert.Lstm

/-- The `g`-th of four things. -/
def pick {α : Type} (g : Fin 4) (a b c d : α) : α :=
  match g with
  | 0 => a
  | 1 => b
  | 2 => c
  | 3 => d

theorem pick_0 {α : Type} (a b c d : α) : pick 0 a b c d = a := rfl
theorem pick_1 {α : Type} (a b c d : α) : pick 1 a b c d = b := rfl
theorem pick_2 {α : Type} (a b c d : α) : pick 2 a b c d = c := rfl
theorem pick_3 {α : Type} (a b c d : α) : pick 3 a b c d = d := rfl

variable (x0 x1 x2 : (⟨S4096x1024, .f32⟩ : BufTy).Contents (Elt Ideal))
variable (x3 x4 x5 x6 x7 x8 x9 x10 : (⟨S1024x1024, .f32⟩ : BufTy).Contents (Elt Ideal))
variable (x11 x12 x13 x14 : (⟨S1024, .f32⟩ : BufTy).Contents (Elt Ideal))

/-- Four matrices laid side by side, read in column `1024·g + j`: the `g`-th matrix in column `j`. -/
theorem wide_apply (g : Fin 4) (k j : Fin 1024) (idx : S1024x4096.Idx)
    (h0 : (idx 0).val = k.val) (h1 : (idx 1).val = 1024 * g.val + j.val) :
    val_main_v0 (F := Ideal) x3 x4 x5 x6 idx = pick g x3 x4 x5 x6 (ix2 k j) := by
  unfold val_main_v0
  refine concatenate_apply_piece _ _ _ idx g.val ?_ S1024x1024 (pick g x3 x4 x5 x6) ?_ rfl
    (1024 * g.val) ?_ (ix2 k j) ?_ ?_
  · exact g.isLt
  · fin_cases g <;> rfl
  · fin_cases g <;> rfl
  · intro b hb
    match b with
    | ⟨0, _⟩ => exact h0.symm
    | ⟨1, _⟩ => exact absurd rfl hb
  · exact h1.symm

/-- Four bias vectors laid end to end, read at `1024·g + j`: the `g`-th vector at `j`. -/
theorem long_apply (g : Fin 4) (j : Fin 1024) (idx : S4096.Idx) (h : (idx 0).val = 1024 * g.val + j.val) :
    val_main_v2 (F := Ideal) x11 x12 x13 x14 idx = pick g x11 x12 x13 x14 (ix1 j) := by
  unfold val_main_v2
  refine concatenate_apply_piece _ _ _ idx g.val ?_ S1024 (pick g x11 x12 x13 x14) ?_ rfl
    (1024 * g.val) ?_ (ix1 j) ?_ ?_
  · exact g.isLt
  · fin_cases g <;> rfl
  · fin_cases g <;> rfl
  · intro b hb
    match b with
    | ⟨0, _⟩ => exact absurd rfl hb
  · exact h.symm

/-- The wide pre-activation x·W + h·U + b in row `r`, column `1024·g + j` is gate `g`'s own pre-activation at
    `(r, j)`: every term of both contractions, and the bias, come from the `g`-th pieces. -/
theorem gates_apply (g : Fin 4) (r : Fin 4096) (j : Fin 1024) (i : S4096x4096.Idx)
    (h0 : (i 0).val = r.val) (h1 : (i 1).val = 1024 * g.val + j.val) :
    val_main_v8 (F := Ideal) x0 x1 x3 x4 x5 x6 x7 x8 x9 x10 x11 x12 x13 x14 i
      = pre x0 x1 (pick g x3 x4 x5 x6) (pick g x7 x8 x9 x10) (pick g x11 x12 x13 x14) r j := by
  rw [val_main_v8_apply, val_main_v5_apply, val_main_v3_apply, val_main_v4_apply, val_main_v7_apply, val_main_v6_apply]
  unfold pre
  have el : ∀ k : Fin 1024, lidx_main_v3 i k = ix2 r k := fun k => funext fun a => Fin.ext (by
    match a with
    | ⟨0, _⟩ => exact h0
    | ⟨1, _⟩ => rfl)
  have el' : ∀ k : Fin 1024, lidx_main_v4 i k = ix2 r k := fun k => funext fun a => Fin.ext (by
    match a with
    | ⟨0, _⟩ => exact h0
    | ⟨1, _⟩ => rfl)
  have s1 : (∑ k : Fin 1024, x0 (lidx_main_v3 i k) * val_main_v0 (F := Ideal) x3 x4 x5 x6 (ridx_main_v3 i k))
      = ∑ k : Fin 1024, x0 (ix2 r k) * pick g x3 x4 x5 x6 (ix2 k j) :=
    Finset.sum_congr rfl fun k _ => by
      rw [el k, wide_apply x3 x4 x5 x6 g k j (ridx_main_v3 i k) rfl h1]
  have s2 : (∑ k : Fin 1024, x1 (lidx_main_v4 i k) * val_main_v1 (F := Ideal) x7 x8 x9 x10 (ridx_main_v4 i k))
      = ∑ k : Fin 1024, x1 (ix2 r k) * pick g x7 x8 x9 x10 (ix2 k j) :=
    Finset.sum_congr rfl fun k _ => by
      rw [el' k]
      exact congrArg (x1 (ix2 r k) * ·) (wide_apply x7 x8 x9 x10 g k j (ridx_main_v4 i k) rfl h1)
  rw [s1, s2, long_apply x11 x12 x13 x14 g j (idx_main_v6 (idx_main_v7 i)) h1]
  rfl

/-- THE REFERENCE'S RESULT, as the run's last stage states it, is the LSTM cell of the arguments: gate `f` from the first
    column range, `i` from the second, the candidate from the third, `o` from the fourth. -/
theorem result_eq :
    val_main_v36 (F := Ideal) x0 x1 x2 x3 x4 x5 x6 x7 x8 x9 x10 x11 x12 x13 x14
      = cell x0 x1 x2 x3 x4 x5 x6 x7 x8 x9 x10 x11 x12 x13 x14 := by
  funext i
  obtain ⟨r, j, rfl⟩ : ∃ (r : Fin 4096) (j : Fin 1024), i = ix2 r j := ⟨i 0, i 1, eq_ix2 i⟩
  rw [cell_ix2]
  simp only [val_main_v36_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply, val_main_v12_apply,
    val_main_v11_apply, val_main_v10_apply, val_main_v9_apply, val_main_cst_apply, val_main_cst_0_apply,
    val_main_cst_1_apply, val_main_cst_2_apply, val_main_cst_3_apply, val_main_cst_4_apply]
  rw [gates_apply x0 x1 x3 x4 x5 x6 x7 x8 x9 x10 x11 x12 x13 x14 0 r j (idx_main_v9 (ix2 r j)) rfl (Nat.zero_add _).symm,
    gates_apply x0 x1 x3 x4 x5 x6 x7 x8 x9 x10 x11 x12 x13 x14 1 r j (idx_main_v16 (ix2 r j)) rfl rfl,
    gates_apply x0 x1 x3 x4 x5 x6 x7 x8 x9 x10 x11 x12 x13 x14 2 r j (idx_main_v23 (ix2 r j)) rfl rfl,
    gates_apply x0 x1 x3 x4 x5 x6 x7 x8 x9 x10 x11 x12 x13 x14 3 r j (idx_main_v25 (ix2 r j)) rfl rfl]
  simp only [pick_0, pick_1, pick_2, pick_3]
  rfl

end Cert.ReferenceIdeal.RefValue

end
-- ==== Proof.LstmBlock.lean ====
/-
  What one grid point of the kernel stores, entry by entry.

  At a grid point the body holds a block of 256 rows of x, h and c, the eight whole weight matrices (already in the
  matrix unit's input format, which at the extended reals is no change) and the four biases as one-row matrices.  It
  stores

      σ(pre_o) · tanh (σ(pre_f) · c + σ(pre_i) · tanh pre_c)

  where each pre-activation is  x·W_g + h·U_g + b_g  with the bias row repeated down the 256 rows.  A matrix product into
  a zero accumulator is, at an entry (p, q), the plain sum over k of the row's entries times the column's; so entry
  (p, q) of the stored block is the LSTM step of the four gate sums of row p and column q.
-/
import proofs.«148964_j33526514712649_2_alg».proof.Proof.Gen.KernelIdeal.Frame
import proofs.«148964_j33526514712649_2_alg».proof.Proof.LstmSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.Lstm

/-- The zero offsets of a rectangle that is the whole buffer. -/
theorem hz : (![0, 0] : Fin 2 → Nat) = fun _ => 0 := funext fun a => by fin_cases a <;> rfl

/-! ## A matrix product into the zero accumulator, at an entry -/

theorem lhs_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl

theorem lhs_col (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q

theorem rhs_row (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q

theorem rhs_col (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry `(p, q)` of a 256×1024 by 1024×1024 product accumulated onto zero: `Σ_k x[p,k] · w[k,q]`. -/
theorem mm_apply (x : FVec Ideal S256x1024 .bf16) (w : FVec Ideal S1024x1024 .bf16) (p : Fin 256) (q : Fin 1024) :
    matmul dot_S256x1024_S1024x1024_S256x1024_1_0_0_1_n_n none x w (constant (F := Ideal) S256x1024 .f32 0x00000000#32) (ix2 p q)
      = ∑ k : Fin 1024, x (ix2 p k) * w (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_row _ _
    | ⟨1, _⟩ => exact (lhs_col _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_row _ _).trans hk
    | ⟨1, _⟩ => exact rhs_col _ _)
  rw [el, er]

/-! ## One gate's pre-activation over a block -/

/-- A gate's pre-activation at entry `(p, q)` of the block: the two products' entries added, then the bias row. -/
def preB (x h : FVec Ideal S256x1024 .f32) (W U : FVec Ideal S1024x1024 .bf16) (b : FVec Ideal S1x1024 .f32)
    (p : Fin 256) (q : Fin 1024) : EReal :=
  ((∑ k : Fin 1024, x (ix2 p k) * W (ix2 k q)) + (∑ k : Fin 1024, h (ix2 p k) * U (ix2 k q))) + b (ix2 (0 : Fin 1) q)

/-- The two products of a gate added, as the body computes them (the inputs rounded for the matrix unit first). -/
def prodV (x h : FVec Ideal S256x1024 .f32) (W U : FVec Ideal S1024x1024 .bf16) : FVec Ideal S256x1024 .f32 :=
  addf (matmul dot_S256x1024_S1024x1024_S256x1024_1_0_0_1_n_n none (truncf .bf16 x bitsLt_bf16_f32 : FVec Ideal S256x1024 .bf16) W (constant (F := Ideal) S256x1024 .f32 0x00000000#32))
    (matmul dot_S256x1024_S1024x1024_S256x1024_1_0_0_1_n_n none (truncf .bf16 h bitsLt_bf16_f32 : FVec Ideal S256x1024 .bf16) U (constant (F := Ideal) S256x1024 .f32 0x00000000#32))

/-- A gate's pre-activation as the body computes it: the products, then the bias row repeated down the rows. -/
def gateV (x h : FVec Ideal S256x1024 .f32) (W U : FVec Ideal S1024x1024 .bf16) (b : FVec Ideal S1x1024 .f32) : FVec Ideal S256x1024 .f32 :=
  addf (prodV x h W U) (broadcastTo S256x1024 b broadcasts_S1x1024_S256x1024)

theorem gateV_apply (x h : FVec Ideal S256x1024 .f32) (W U : FVec Ideal S1024x1024 .bf16) (b : FVec Ideal S1x1024 .f32)
    (p : Fin 256) (q : Fin 1024) : gateV x h W U b (ix2 p q) = preB x h W U b p q := by
  unfold gateV prodV preB
  rw [addf_apply, addf_apply, mm_apply, mm_apply, broadcastTo_1b_ab_apply]
  rfl

/-- A block's pre-activation is the whole arrays' pre-activation at the row the block's row `p` is, once each entry the
    block holds is known to be the whole array's entry there. -/
theorem preB_eq (X H : FVec Ideal S256x1024 .f32) (W U : FVec Ideal S1024x1024 .bf16) (B : FVec Ideal S1x1024 .f32)
    (x h : Act) (w u : Mat) (b : Bias) (r : Fin 4096) (p : Fin 256) (q : Fin 1024)
    (hX : ∀ k : Fin 1024, X (ix2 p k) = x (ix2 r k)) (hH : ∀ k : Fin 1024, H (ix2 p k) = h (ix2 r k))
    (hW : ∀ k : Fin 1024, W (ix2 k q) = w (ix2 k q)) (hU : ∀ k : Fin 1024, U (ix2 k q) = u (ix2 k q))
    (hB : B (ix2 (0 : Fin 1) q) = b (ix1 q)) :
    preB X H W U B p q = pre x h w u b r q := by
  unfold preB pre
  rw [Finset.sum_congr rfl (fun k _ => by rw [hX k, hW k] : ∀ k ∈ Finset.univ, X (ix2 p k) * W (ix2 k q) = x (ix2 r k) * w (ix2 k q)),
    Finset.sum_congr rfl (fun k _ => by rw [hH k, hU k] : ∀ k ∈ Finset.univ, H (ix2 p k) * U (ix2 k q) = h (ix2 r k) * u (ix2 k q)), hB]

/-! ## The body's payloads are those terms -/

theorem pay4_eq (x h : FVec Ideal S256x1024 .f32) (W U : FVec Ideal S1024x1024 .bf16) (b : FVec Ideal S1x1024 .f32) :
    k0_pay4 x h W U b = gateV x h W U b := by
  unfold k0_pay4 k0_pay2 k0_pay3 gateV prodV
  simp only [shapeCast_self]

theorem pay5_eq (x h : FVec Ideal S256x1024 .f32) (W U : FVec Ideal S1024x1024 .bf16) (b : FVec Ideal S1x1024 .f32) :
    k0_pay5 x h W U b = gateV x h W U b := by
  unfold k0_pay5 k0_pay2 k0_pay3 gateV prodV
  simp only [shapeCast_self]

theorem pay6_eq (x h : FVec Ideal S256x1024 .f32) (W U : FVec Ideal S1024x1024 .bf16) :
    k0_pay6 x h W U = prodV x h W U := by
  unfold k0_pay6 k0_pay2 k0_pay3 prodV
  simp only [shapeCast_self]

/-- The stored value as a term of the four gates. -/
theorem pay1_eq (x h c : FVec Ideal S256x1024 .f32) (W3 W4 W5 W6 U7 U8 U9 U10 : FVec Ideal S1024x1024 .bf16)
    (b11 b12 b13 b14 : FVec Ideal S1x1024 .f32) :
    k0_pay1 (k0_pay2 x) (k0_pay3 h) (k0_pay4 x h W3 U7 b11) (k0_pay5 x h W4 U8 b12) (k0_pay6 x h W5 U9) b13 W6 U10 b14 c
      = mulf (logistic (gateV x h W6 U10 b14))
          (tanh (addf (mulf (logistic (gateV x h W3 U7 b11)) c) (mulf (logistic (gateV x h W4 U8 b12)) (tanh (gateV x h W5 U9 b13))))) := by
  rw [pay4_eq, pay5_eq, pay6_eq]
  unfold k0_pay1 k0_pay2 k0_pay3 gateV prodV
  simp only [shapeCast_self]

/-- ENTRY `(p, q)` OF WHAT A GRID POINT STORES, from the blocks it holds: the LSTM step of the four gates'
    pre-activations at that entry and the old cell state there. -/
theorem out_apply (x0 x1 x2 : FVec Ideal S256x1024 .f32) (x3 x4 x5 x6 x7 x8 x9 x10 : FVec Ideal S1024x1024 .bf16)
    (x11 x12 x13 x14 : FVec Ideal S1x1024 .f32) (p : Fin 256) (q : Fin 1024) :
    out0_15 (F := Ideal) x0 x1 x2 x3 x4 x5 x6 x7 x8 x9 x10 x11 x12 x13 x14 (ix2 p q)
      = step (preB x0 x1 x3 x7 x11 p q) (preB x0 x1 x4 x8 x12 p q) (preB x0 x1 x5 x9 x13 p q) (preB x0 x1 x6 x10 x14 p q)
          (x2 (ix2 p q)) := by
  unfold out0_15
  rw [View.canon_unit_zero hz]
  simp only [View.ld_unit_zero (S := S256x1024) hz, View.ld_unit_zero (S := S1024x1024) hz, View.ld_unit_zero (S := S1x1024) hz]
  rw [pay1_eq]
  show Ideal.logistic (gateV x0 x1 x6 x10 x14 (ix2 p q))
      * Ideal.tanh (Ideal.logistic (gateV x0 x1 x3 x7 x11 (ix2 p q)) * x2 (ix2 p q)
          + Ideal.logistic (gateV x0 x1 x4 x8 x12 (ix2 p q)) * Ideal.tanh (gateV x0 x1 x5 x9 x13 (ix2 p q))) = _
  rw [gateV_apply, gateV_apply, gateV_apply, gateV_apply, logistic_eq, logistic_eq, logistic_eq]
  rfl

end Cert.KernelIdeal.Block

end
-- ==== Proof.LstmArray.lean ====
/-
  From the blocks to the whole array.

  The grid has sixteen points; point `t` holds rows 256·t … 256·t + 255 of x, h and c, the eight whole weight
  matrices and the four bias rows, and writes back rows 256·t … 256·t + 255 of the result.  The weight matrices reach the
  region through the host's change of format (the identity at the extended reals) and the biases through the host's
  view of a vector as a one-row matrix.  So what point `t` writes back is block `t` of the LSTM cell of the argument
  arrays; the sixteen blocks cover the 4096 rows, and the result array ends holding the cell.
-/
import proofs.«148964_j33526514712649_2_alg».proof.Proof.Gen.KernelIdeal.Value
import proofs.«148964_j33526514712649_2_alg».proof.Proof.LstmBlock
import Idealize.ShloMosaic.Lib.StableHlo.Run
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Lstm
open Idealize.ShloMosaic.Pipeline (Dat)

variable (m : (ℓ : Loc nD τ sig) → Buf (Elt Ideal) ℓ) (ρ : Dev nD → PrngReg)

/-! ## The printed index maps, decided over the sixteen grid points -/

theorem idx_rows_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_rows_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_rows_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_rows_15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)
theorem idx_fixed_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_fixed_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_fixed_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_fixed_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_fixed_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_fixed_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_fixed_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_fixed_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_fixed_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx_fixed_12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx_fixed_13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx_fixed_14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

/-! ## Each window's block as entries of the argument arrays -/

/-- Window 0's block at grid point `t` is rows `256·t … 256·t + 255` of argument 0. -/
theorem rows_0 (c : Dev nD) (t : Fin cfg0.N) (p : Fin 256) (k : Fin 1024) (hp : 256 * t.val + p.val < 4096) :
    (iblk m c 0 t : FVec Ideal S256x1024 .f32) (ix2 p k)
      = ((m ((c : Thread nD τ).loc main_arg0)) : S4096x1024.Idx → EReal) (ix2 ⟨256 * t.val + p.val, hp⟩ k) := by
  have hi : win0_0.index t (0 : Fin 2) = t.val ∧ win0_0.index t (1 : Fin 2) = 0 := idx_rows_0 t
  unfold iblk
  rw [View.read_apply]
  show V m c main_arg0 _ = _
  rw [V_main_arg0]
  refine congrArg ((m ((c : Thread nD τ).loc main_arg0)) : S4096x1024.Idx → EReal) (funext fun a => Fin.ext ?_)
  match a with
  | ⟨0, _⟩ => show win0_0.index t (0 : Fin 2) * 256 + 1 * p.val = 256 * t.val + p.val; rw [hi.1]; omega
  | ⟨1, _⟩ => show win0_0.index t (1 : Fin 2) * 1024 + 1 * k.val = k.val; rw [hi.2]; omega

/-- Window 1's block at grid point `t` is rows `256·t … 256·t + 255` of argument 1. -/
theorem rows_1 (c : Dev nD) (t : Fin cfg0.N) (p : Fin 256) (k : Fin 1024) (hp : 256 * t.val + p.val < 4096) :
    (iblk m c 1 t : FVec Ideal S256x1024 .f32) (ix2 p k)
      = ((m ((c : Thread nD τ).loc main_arg1)) : S4096x1024.Idx → EReal) (ix2 ⟨256 * t.val + p.val, hp⟩ k) := by
  have hi : win0_1.index t (0 : Fin 2) = t.val ∧ win0_1.index t (1 : Fin 2) = 0 := idx_rows_1 t
  unfold iblk
  rw [View.read_apply]
  show V m c main_arg1 _ = _
  rw [V_main_arg1]
  refine congrArg ((m ((c : Thread nD τ).loc main_arg1)) : S4096x1024.Idx → EReal) (funext fun a => Fin.ext ?_)
  match a with
  | ⟨0, _⟩ => show win0_1.index t (0 : Fin 2) * 256 + 1 * p.val = 256 * t.val + p.val; rw [hi.1]; omega
  | ⟨1, _⟩ => show win0_1.index t (1 : Fin 2) * 1024 + 1 * k.val = k.val; rw [hi.2]; omega

/-- Window 2's block at grid point `t` is rows `256·t … 256·t + 255` of argument 2. -/
theorem rows_2 (c : Dev nD) (t : Fin cfg0.N) (p : Fin 256) (k : Fin 1024) (hp : 256 * t.val + p.val < 4096) :
    (iblk m c 2 t : FVec Ideal S256x1024 .f32) (ix2 p k)
      = ((m ((c : Thread nD τ).loc main_arg2)) : S4096x1024.Idx → EReal) (ix2 ⟨256 * t.val + p.val, hp⟩ k) := by
  have hi : win0_2.index t (0 : Fin 2) = t.val ∧ win0_2.index t (1 : Fin 2) = 0 := idx_rows_2 t
  unfold iblk
  rw [View.read_apply]
  show V m c main_arg2 _ = _
  rw [V_main_arg2]
  refine congrArg ((m ((c : Thread nD τ).loc main_arg2)) : S4096x1024.Idx → EReal) (funext fun a => Fin.ext ?_)
  match a with
  | ⟨0, _⟩ => show win0_2.index t (0 : Fin 2) * 256 + 1 * p.val = 256 * t.val + p.val; rw [hi.1]; omega
  | ⟨1, _⟩ => show win0_2.index t (1 : Fin 2) * 1024 + 1 * k.val = k.val; rw [hi.2]; omega

/-- The host rounds argument 3 for the matrix unit before the region: no change at the extended reals. -/
theorem host_3 (c : Dev nD) : @Eq (S1024x1024.Idx → EReal) (V m c main_v0) (m ((c : Thread nD τ).loc main_arg3)) := by
  dsimp only [V, hostOps0]; after_results; rfl

/-- Window 3 holds that whole matrix at every grid point. -/
theorem mat_3 (c : Dev nD) (t : Fin cfg0.N) (k q : Fin 1024) :
    (iblk m c 3 t : FVec Ideal S1024x1024 .bf16) (ix2 k q) = ((m ((c : Thread nD τ).loc main_arg3)) : S1024x1024.Idx → EReal) (ix2 k q) := by
  have hi : win0_3.index t (0 : Fin 2) = 0 ∧ win0_3.index t (1 : Fin 2) = 0 := idx_fixed_3 t
  unfold iblk
  rw [View.read_apply]
  show V m c main_v0 _ = _
  rw [host_3]
  refine congrArg ((m ((c : Thread nD τ).loc main_arg3)) : S1024x1024.Idx → EReal) (funext fun a => Fin.ext ?_)
  match a with
  | ⟨0, _⟩ => show win0_3.index t (0 : Fin 2) * 1024 + 1 * k.val = k.val; rw [hi.1]; omega
  | ⟨1, _⟩ => show win0_3.index t (1 : Fin 2) * 1024 + 1 * q.val = q.val; rw [hi.2]; omega

/-- The host rounds argument 4 for the matrix unit before the region: no change at the extended reals. -/
theorem host_4 (c : Dev nD) : @Eq (S1024x1024.Idx → EReal) (V m c main_v1) (m ((c : Thread nD τ).loc main_arg4)) := by
  dsimp only [V, hostOps0]; after_results; rfl

/-- Window 4 holds that whole matrix at every grid point. -/
theorem mat_4 (c : Dev nD) (t : Fin cfg0.N) (k q : Fin 1024) :
    (iblk m c 4 t : FVec Ideal S1024x1024 .bf16) (ix2 k q) = ((m ((c : Thread nD τ).loc main_arg4)) : S1024x1024.Idx → EReal) (ix2 k q) := by
  have hi : win0_4.index t (0 : Fin 2) = 0 ∧ win0_4.index t (1 : Fin 2) = 0 := idx_fixed_4 t
  unfold iblk
  rw [View.read_apply]
  show V m c main_v1 _ = _
  rw [host_4]
  refine congrArg ((m ((c : Thread nD τ).loc main_arg4)) : S1024x1024.Idx → EReal) (funext fun a => Fin.ext ?_)
  match a with
  | ⟨0, _⟩ => show win0_4.index t (0 : Fin 2) * 1024 + 1 * k.val = k.val; rw [hi.1]; omega
  | ⟨1, _⟩ => show win0_4.index t (1 : Fin 2) * 1024 + 1 * q.val = q.val; rw [hi.2]; omega

/-- The host rounds argument 5 for the matrix unit before the region: no change at the extended reals. -/
theorem host_5 (c : Dev nD) : @Eq (S1024x1024.Idx → EReal) (V m c main_v2) (m ((c : Thread nD τ).loc main_arg5)) := by
  dsimp only [V, hostOps0]; after_results; rfl

/-- Window 5 holds that whole matrix at every grid point. -/
theorem mat_5 (c : Dev nD) (t : Fin cfg0.N) (k q : Fin 1024) :
    (iblk m c 5 t : FVec Ideal S1024x1024 .bf16) (ix2 k q) = ((m ((c : Thread nD τ).loc main_arg5)) : S1024x1024.Idx → EReal) (ix2 k q) := by
  have hi : win0_5.index t (0 : Fin 2) = 0 ∧ win0_5.index t (1 : Fin 2) = 0 := idx_fixed_5 t
  unfold iblk
  rw [View.read_apply]
  show V m c main_v2 _ = _
  rw [host_5]
  refine congrArg ((m ((c : Thread nD τ).loc main_arg5)) : S1024x1024.Idx → EReal) (funext fun a => Fin.ext ?_)
  match a with
  | ⟨0, _⟩ => show win0_5.index t (0 : Fin 2) * 1024 + 1 * k.val = k.val; rw [hi.1]; omega
  | ⟨1, _⟩ => show win0_5.index t (1 : Fin 2) * 1024 + 1 * q.val = q.val; rw [hi.2]; omega

/-- The host rounds argument 6 for the matrix unit before the region: no change at the extended reals. -/
theorem host_6 (c : Dev nD) : @Eq (S1024x1024.Idx → EReal) (V m c main_v3) (m ((c : Thread nD τ).loc main_arg6)) := by
  dsimp only [V, hostOps0]; after_results; rfl

/-- Window 6 holds that whole matrix at every grid point. -/
theorem mat_6 (c : Dev nD) (t : Fin cfg0.N) (k q : Fin 1024) :
    (iblk m c 6 t : FVec Ideal S1024x1024 .bf16) (ix2 k q) = ((m ((c : Thread nD τ).loc main_arg6)) : S1024x1024.Idx → EReal) (ix2 k q) := by
  have hi : win0_6.index t (0 : Fin 2) = 0 ∧ win0_6.index t (1 : Fin 2) = 0 := idx_fixed_6 t
  unfold iblk
  rw [View.read_apply]
  show V m c main_v3 _ = _
  rw [host_6]
  refine congrArg ((m ((c : Thread nD τ).loc main_arg6)) : S1024x1024.Idx → EReal) (funext fun a => Fin.ext ?_)
  match a with
  | ⟨0, _⟩ => show win0_6.index t (0 : Fin 2) * 1024 + 1 * k.val = k.val; rw [hi.1]; omega
  | ⟨1, _⟩ => show win0_6.index t (1 : Fin 2) * 1024 + 1 * q.val = q.val; rw [hi.2]; omega

/-- The host rounds argument 7 for the matrix unit before the region: no change at the extended reals. -/
theorem host_7 (c : Dev nD) : @Eq (S1024x1024.Idx → EReal) (V m c main_v4) (m ((c : Thread nD τ).loc main_arg7)) := by
  dsimp only [V, hostOps0]; after_results; rfl

/-- Window 7 holds that whole matrix at every grid point. -/
theorem mat_7 (c : Dev nD) (t : Fin cfg0.N) (k q : Fin 1024) :
    (iblk m c 7 t : FVec Ideal S1024x1024 .bf16) (ix2 k q) = ((m ((c : Thread nD τ).loc main_arg7)) : S1024x1024.Idx → EReal) (ix2 k q) := by
  have hi : win0_7.index t (0 : Fin 2) = 0 ∧ win0_7.index t (1 : Fin 2) = 0 := idx_fixed_7 t
  unfold iblk
  rw [View.read_apply]
  show V m c main_v4 _ = _
  rw [host_7]
  refine congrArg ((m ((c : Thread nD τ).loc main_arg7)) : S1024x1024.Idx → EReal) (funext fun a => Fin.ext ?_)
  match a with
  | ⟨0, _⟩ => show win0_7.index t (0 : Fin 2) * 1024 + 1 * k.val = k.val; rw [hi.1]; omega
  | ⟨1, _⟩ => show win0_7.index t (1 : Fin 2) * 1024 + 1 * q.val = q.val; rw [hi.2]; omega

/-- The host rounds argument 8 for the matrix unit before the region: no change at the extended reals. -/
theorem host_8 (c : Dev nD) : @Eq (S1024x1024.Idx → EReal) (V m c main_v5) (m ((c : Thread nD τ).loc main_arg8)) := by
  dsimp only [V, hostOps0]; after_results; rfl

/-- Window 8 holds that whole matrix at every grid point. -/
theorem mat_8 (c : Dev nD) (t : Fin cfg0.N) (k q : Fin 1024) :
    (iblk m c 8 t : FVec Ideal S1024x1024 .bf16) (ix2 k q) = ((m ((c : Thread nD τ).loc main_arg8)) : S1024x1024.Idx → EReal) (ix2 k q) := by
  have hi : win0_8.index t (0 : Fin 2) = 0 ∧ win0_8.index t (1 : Fin 2) = 0 := idx_fixed_8 t
  unfold iblk
  rw [View.read_apply]
  show V m c main_v5 _ = _
  rw [host_8]
  refine congrArg ((m ((c : Thread nD τ).loc main_arg8)) : S1024x1024.Idx → EReal) (funext fun a => Fin.ext ?_)
  match a with
  | ⟨0, _⟩ => show win0_8.index t (0 : Fin 2) * 1024 + 1 * k.val = k.val; rw [hi.1]; omega
  | ⟨1, _⟩ => show win0_8.index t (1 : Fin 2) * 1024 + 1 * q.val = q.val; rw [hi.2]; omega

/-- The host rounds argument 9 for the matrix unit before the region: no change at the extended reals. -/
theorem host_9 (c : Dev nD) : @Eq (S1024x1024.Idx → EReal) (V m c main_v6) (m ((c : Thread nD τ).loc main_arg9)) := by
  dsimp only [V, hostOps0]; after_results; rfl

/-- Window 9 holds that whole matrix at every grid point. -/
theorem mat_9 (c : Dev nD) (t : Fin cfg0.N) (k q : Fin 1024) :
    (iblk m c 9 t : FVec Ideal S1024x1024 .bf16) (ix2 k q) = ((m ((c : Thread nD τ).loc main_arg9)) : S1024x1024.Idx → EReal) (ix2 k q) := by
  have hi : win0_9.index t (0 : Fin 2) = 0 ∧ win0_9.index t (1 : Fin 2) = 0 := idx_fixed_9 t
  unfold iblk
  rw [View.read_apply]
  show V m c main_v6 _ = _
  rw [host_9]
  refine congrArg ((m ((c : Thread nD τ).loc main_arg9)) : S1024x1024.Idx → EReal) (funext fun a => Fin.ext ?_)
  match a with
  | ⟨0, _⟩ => show win0_9.index t (0 : Fin 2) * 1024 + 1 * k.val = k.val; rw [hi.1]; omega
  | ⟨1, _⟩ => show win0_9.index t (1 : Fin 2) * 1024 + 1 * q.val = q.val; rw [hi.2]; omega

/-- The host rounds argument 10 for the matrix unit before the region: no change at the extended reals. -/
theorem host_10 (c : Dev nD) : @Eq (S1024x1024.Idx → EReal) (V m c main_v7) (m ((c : Thread nD τ).loc main_arg10)) := by
  dsimp only [V, hostOps0]; after_results; rfl

/-- Window 10 holds that whole matrix at every grid point. -/
theorem mat_10 (c : Dev nD) (t : Fin cfg0.N) (k q : Fin 1024) :
    (iblk m c 10 t : FVec Ideal S1024x1024 .bf16) (ix2 k q) = ((m ((c : Thread nD τ).loc main_arg10)) : S1024x1024.Idx → EReal) (ix2 k q) := by
  have hi : win0_10.index t (0 : Fin 2) = 0 ∧ win0_10.index t (1 : Fin 2) = 0 := idx_fixed_10 t
  unfold iblk
  rw [View.read_apply]
  show V m c main_v7 _ = _
  rw [host_10]
  refine congrArg ((m ((c : Thread nD τ).loc main_arg10)) : S1024x1024.Idx → EReal) (funext fun a => Fin.ext ?_)
  match a with
  | ⟨0, _⟩ => show win0_10.index t (0 : Fin 2) * 1024 + 1 * k.val = k.val; rw [hi.1]; omega
  | ⟨1, _⟩ => show win0_10.index t (1 : Fin 2) * 1024 + 1 * q.val = q.val; rw [hi.2]; omega

/-- The host views bias 11 as a one-row matrix before the region. -/
theorem host_11 (c : Dev nD) : @Eq (S1x1024.Idx → EReal) (V m c main_v8)
    (shapeCast S1x1024 ((m ((c : Thread nD τ).loc main_arg11)) : S1024.Idx → EReal) shapeCasts_S1024_S1x1024) := by
  dsimp only [V, hostOps0]; after_results; rfl

/-- Window 11 holds that row at every grid point: entry `(0, q)` is the bias's entry `q`. -/
theorem bias_11 (c : Dev nD) (t : Fin cfg0.N) (q : Fin 1024) :
    (iblk m c 11 t : FVec Ideal S1x1024 .f32) (ix2 (0 : Fin 1) q) = ((m ((c : Thread nD τ).loc main_arg11)) : S1024.Idx → EReal) (ix1 q) := by
  have hi : win0_11.index t (0 : Fin 2) = 0 ∧ win0_11.index t (1 : Fin 2) = 0 := idx_fixed_11 t
  unfold iblk
  rw [View.read_apply]
  show V m c main_v8 _ = _
  rw [host_11]
  refine Eq.trans (congrArg (shapeCast S1x1024 ((m ((c : Thread nD τ).loc main_arg11)) : S1024.Idx → EReal) shapeCasts_S1024_S1x1024) (funext fun a => Fin.ext ?_))
    (shapeCast_a_1a_apply ((m ((c : Thread nD τ).loc main_arg11)) : S1024.Idx → EReal) shapeCasts_S1024_S1x1024 (0 : Fin 1) q)
  match a with
  | ⟨0, _⟩ => show win0_11.index t (0 : Fin 2) * 1 + 1 * 0 = 0; rw [hi.1]
  | ⟨1, _⟩ => show win0_11.index t (1 : Fin 2) * 1024 + 1 * q.val = q.val; rw [hi.2]; omega

/-- The host views bias 12 as a one-row matrix before the region. -/
theorem host_12 (c : Dev nD) : @Eq (S1x1024.Idx → EReal) (V m c main_v9)
    (shapeCast S1x1024 ((m ((c : Thread nD τ).loc main_arg12)) : S1024.Idx → EReal) shapeCasts_S1024_S1x1024) := by
  dsimp only [V, hostOps0]; after_results; rfl

/-- Window 12 holds that row at every grid point: entry `(0, q)` is the bias's entry `q`. -/
theorem bias_12 (c : Dev nD) (t : Fin cfg0.N) (q : Fin 1024) :
    (iblk m c 12 t : FVec Ideal S1x1024 .f32) (ix2 (0 : Fin 1) q) = ((m ((c : Thread nD τ).loc main_arg12)) : S1024.Idx → EReal) (ix1 q) := by
  have hi : win0_12.index t (0 : Fin 2) = 0 ∧ win0_12.index t (1 : Fin 2) = 0 := idx_fixed_12 t
  unfold iblk
  rw [View.read_apply]
  show V m c main_v9 _ = _
  rw [host_12]
  refine Eq.trans (congrArg (shapeCast S1x1024 ((m ((c : Thread nD τ).loc main_arg12)) : S1024.Idx → EReal) shapeCasts_S1024_S1x1024) (funext fun a => Fin.ext ?_))
    (shapeCast_a_1a_apply ((m ((c : Thread nD τ).loc main_arg12)) : S1024.Idx → EReal) shapeCasts_S1024_S1x1024 (0 : Fin 1) q)
  match a with
  | ⟨0, _⟩ => show win0_12.index t (0 : Fin 2) * 1 + 1 * 0 = 0; rw [hi.1]
  | ⟨1, _⟩ => show win0_12.index t (1 : Fin 2) * 1024 + 1 * q.val = q.val; rw [hi.2]; omega

/-- The host views bias 13 as a one-row matrix before the region. -/
theorem host_13 (c : Dev nD) : @Eq (S1x1024.Idx → EReal) (V m c main_v10)
    (shapeCast S1x1024 ((m ((c : Thread nD τ).loc main_arg13)) : S1024.Idx → EReal) shapeCasts_S1024_S1x1024) := by
  dsimp only [V, hostOps0]; after_results; rfl

/-- Window 13 holds that row at every grid point: entry `(0, q)` is the bias's entry `q`. -/
theorem bias_13 (c : Dev nD) (t : Fin cfg0.N) (q : Fin 1024) :
    (iblk m c 13 t : FVec Ideal S1x1024 .f32) (ix2 (0 : Fin 1) q) = ((m ((c : Thread nD τ).loc main_arg13)) : S1024.Idx → EReal) (ix1 q) := by
  have hi : win0_13.index t (0 : Fin 2) = 0 ∧ win0_13.index t (1 : Fin 2) = 0 := idx_fixed_13 t
  unfold iblk
  rw [View.read_apply]
  show V m c main_v10 _ = _
  rw [host_13]
  refine Eq.trans (congrArg (shapeCast S1x1024 ((m ((c : Thread nD τ).loc main_arg13)) : S1024.Idx → EReal) shapeCasts_S1024_S1x1024) (funext fun a => Fin.ext ?_))
    (shapeCast_a_1a_apply ((m ((c : Thread nD τ).loc main_arg13)) : S1024.Idx → EReal) shapeCasts_S1024_S1x1024 (0 : Fin 1) q)
  match a with
  | ⟨0, _⟩ => show win0_13.index t (0 : Fin 2) * 1 + 1 * 0 = 0; rw [hi.1]
  | ⟨1, _⟩ => show win0_13.index t (1 : Fin 2) * 1024 + 1 * q.val = q.val; rw [hi.2]; omega

/-- The host views bias 14 as a one-row matrix before the region. -/
theorem host_14 (c : Dev nD) : @Eq (S1x1024.Idx → EReal) (V m c main_v11)
    (shapeCast S1x1024 ((m ((c : Thread nD τ).loc main_arg14)) : S1024.Idx → EReal) shapeCasts_S1024_S1x1024) := by
  dsimp only [V, hostOps0]; after_results; rfl

/-- Window 14 holds that row at every grid point: entry `(0, q)` is the bias's entry `q`. -/
theorem bias_14 (c : Dev nD) (t : Fin cfg0.N) (q : Fin 1024) :
    (iblk m c 14 t : FVec Ideal S1x1024 .f32) (ix2 (0 : Fin 1) q) = ((m ((c : Thread nD τ).loc main_arg14)) : S1024.Idx → EReal) (ix1 q) := by
  have hi : win0_14.index t (0 : Fin 2) = 0 ∧ win0_14.index t (1 : Fin 2) = 0 := idx_fixed_14 t
  unfold iblk
  rw [View.read_apply]
  show V m c main_v11 _ = _
  rw [host_14]
  refine Eq.trans (congrArg (shapeCast S1x1024 ((m ((c : Thread nD τ).loc main_arg14)) : S1024.Idx → EReal) shapeCasts_S1024_S1x1024) (funext fun a => Fin.ext ?_))
    (shapeCast_a_1a_apply ((m ((c : Thread nD τ).loc main_arg14)) : S1024.Idx → EReal) shapeCasts_S1024_S1x1024 (0 : Fin 1) q)
  match a with
  | ⟨0, _⟩ => show win0_14.index t (0 : Fin 2) * 1 + 1 * 0 = 0; rw [hi.1]
  | ⟨1, _⟩ => show win0_14.index t (1 : Fin 2) * 1024 + 1 * q.val = q.val; rw [hi.2]; omega

/-! ## What the result array ends holding -/

/-- The LSTM cell of the fifteen argument arrays as launched. -/
def result (c : Dev nD) : Buf (Elt Ideal) ((c : Thread nD τ).loc main_v12) :=
  cell (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))

/-- WHAT POINT `t` WRITES BACK is block `t` of the cell: entry `(p, q)` of the stored block is the LSTM step of the
    gates at row `256·t + p`, column `q`. -/
theorem flushed_eq (c : Dev nD) (t : Fin cfg0.N) :
    (dats m 0 c).flushed 15 t = ((cfg0.win 15).blk t).view.read (Elt Ideal) (result m c) := by
  rw [Value.flushed15]
  have hi : win0_15.index t (0 : Fin 2) = t.val ∧ win0_15.index t (1 : Fin 2) = 0 := idx_rows_15 t
  have ht : t.val < 16 := by have h := t.isLt; have hN : cfg0.N = 16 := N_0; omega
  refine funext fun (y : S256x1024.Idx) => ?_
  obtain ⟨p, q, rfl⟩ : ∃ (p : Fin 256) (q : Fin 1024), y = ix2 p q := ⟨y 0, y 1, eq_ix2 y⟩
  have hp : 256 * t.val + p.val < 4096 := by have := p.isLt; omega
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = result m c (((cfg0.win 15).blk t).view.emb (ix2 p q))
  have hemb : ((cfg0.win 15).blk t).view.emb (ix2 p q) = (ix2 ⟨256 * t.val + p.val, hp⟩ q : S4096x1024.Idx) :=
    funext fun a => Fin.ext (by
      match a with
      | ⟨0, _⟩ => show win0_15.index t (0 : Fin 2) * 256 + 1 * p.val = 256 * t.val + p.val; rw [hi.1]; omega
      | ⟨1, _⟩ => show win0_15.index t (1 : Fin 2) * 1024 + 1 * q.val = q.val; rw [hi.2]; omega)
  rw [hemb]
  refine (Block.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  unfold result
  rw [cell_ix2, rows_2 m c t p q hp]
  rw [Block.preB_eq (iblk m c 0 t) (iblk m c 1 t) (iblk m c 3 t) (iblk m c 7 t) (iblk m c 11 t) _ _ _ _ _ ⟨256 * t.val + p.val, hp⟩ p q
      (fun k => rows_0 m c t p k hp) (fun k => rows_1 m c t p k hp) (fun k => mat_3 m c t k q) (fun k => mat_7 m c t k q) (bias_11 m c t q),
    Block.preB_eq (iblk m c 0 t) (iblk m c 1 t) (iblk m c 4 t) (iblk m c 8 t) (iblk m c 12 t) _ _ _ _ _ ⟨256 * t.val + p.val, hp⟩ p q
      (fun k => rows_0 m c t p k hp) (fun k => rows_1 m c t p k hp) (fun k => mat_4 m c t k q) (fun k => mat_8 m c t k q) (bias_12 m c t q),
    Block.preB_eq (iblk m c 0 t) (iblk m c 1 t) (iblk m c 5 t) (iblk m c 9 t) (iblk m c 13 t) _ _ _ _ _ ⟨256 * t.val + p.val, hp⟩ p q
      (fun k => rows_0 m c t p k hp) (fun k => rows_1 m c t p k hp) (fun k => mat_5 m c t k q) (fun k => mat_9 m c t k q) (bias_13 m c t q),
    Block.preB_eq (iblk m c 0 t) (iblk m c 1 t) (iblk m c 6 t) (iblk m c 10 t) (iblk m c 14 t) _ _ _ _ _ ⟨256 * t.val + p.val, hp⟩ p q
      (fun k => rows_0 m c t p k hp) (fun k => rows_1 m c t p k hp) (fun k => mat_6 m c t k q) (fun k => mat_10 m c t k q) (bias_14 m c t q)]

/-- An index of the result array is in point `t`'s block iff each coordinate is in the block's range on its axis. -/
theorem mem_blk (t : Fin cfg0.N) (i : S4096x1024.Idx) :
    i ∈ ((cfg0.win 15).blk t).view.set ↔ ∀ a : Fin 2, win0_15.index t a * S256x1024.size a ≤ (i a).val
      ∧ (i a).val < win0_15.index t a * S256x1024.size a + S256x1024.size a := by
  show i ∈ ((View.whole main_v12).slice (win0_15.rect t)).set ↔ _
  rw [View.set_slice_whole, Rect.mem_set_unit]
  exact Iff.rfl

/-- Row `r` of the result lies in the block of point `r / 256`. -/
theorem cover (i : S4096x1024.Idx) : ∃ t : Fin cfg0.N, (cfg0.win 15).flush t = true ∧ i ∈ ((cfg0.win 15).blk t).view.set := by
  have h0 : (i 0).val < 4096 := (i 0).isLt
  have h1 : (i 1).val < 1024 := (i 1).isLt
  have hN : cfg0.N = 16 := N_0
  let t : Fin cfg0.N := ⟨(i 0).val / 256, by rw [hN]; omega⟩
  have hi : win0_15.index t (0 : Fin 2) = t.val ∧ win0_15.index t (1 : Fin 2) = 0 := idx_rows_15 t
  have htv : t.val = (i 0).val / 256 := rfl
  refine ⟨t, flush0_15 t, ?_⟩
  rw [mem_blk]
  intro a
  match a with
  | ⟨0, _⟩ =>
    show win0_15.index t (0 : Fin 2) * 256 ≤ (i 0).val ∧ (i 0).val < win0_15.index t (0 : Fin 2) * 256 + 256
    rw [hi.1, htv]; omega
  | ⟨1, _⟩ =>
    show win0_15.index t (1 : Fin 2) * 1024 ≤ (i 1).val ∧ (i 1).val < win0_15.index t (1 : Fin 2) * 1024 + 1024
    rw [hi.2]; omega

/-- THE RESULT ARRAY after the run is the cell of the arguments. -/
theorem final (c : Dev nD) : (dats m 0 c).arrAt 15 cfg0.N = result m c :=
  (dats m 0 c).arrAt_eq_of_cover 15 (result m c) (fun t _ => flushed_eq m c t) cover

/-- The kernel's run, read: the result array at the cell of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.Whole

end
-- ==== Proof.lean ====
/-
  The kernel and its reference compute one LSTM cell.

  Both take a batch of 4096 rows x, h, c, four input-to-hidden matrices W_f, W_i, W_c, W_o, four hidden-to-hidden
  matrices U_f, U_i, U_c, U_o and four biases, and return

      σ(pre_o) · tanh (σ(pre_f) · c + σ(pre_i) · tanh pre_c),      pre_g = x·W_g + h·U_g + b_g.

  The kernel walks the rows in sixteen blocks of 256 and forms each gate's two products separately; the reference lays
  the four gates' matrices side by side, forms two wide products and cuts the gates back out.  Over the extended reals
  a column range of the wide product is the gate's own product (the contraction never crosses the seam), the change of
  float format before the matrix unit is the identity, and the kernel's logistic is the reference's 1 / (1 + e^(-y)).
  Both sums run over the same index in the same order, so no rearrangement and no finiteness of the inputs is used.

  The specification is `LstmSpec`; the reference is read in `LstmRef`, one block of the kernel in `LstmBlock`, the
  sixteen blocks together in `LstmArray`.  The three frames are the runs with the result forgotten, and the idealization
  rewrote nothing.
-/
import proofs.«148964_j33526514712649_2_alg».proof.Defs
import proofs.«148964_j33526514712649_2_alg».proof.Proof.Gen.Kernel
import proofs.«148964_j33526514712649_2_alg».proof.Proof.Gen.Kernel.Skeleton
import proofs.«148964_j33526514712649_2_alg».proof.Proof.Gen.Kernel.Launch
import proofs.«148964_j33526514712649_2_alg».proof.Proof.Gen.Kernel.Points
import proofs.«148964_j33526514712649_2_alg».proof.Proof.Gen.Kernel.Frame
import proofs.«148964_j33526514712649_2_alg».proof.Proof.Gen.KernelIdeal
import proofs.«148964_j33526514712649_2_alg».proof.Proof.Gen.KernelIdeal.Skeleton
import proofs.«148964_j33526514712649_2_alg».proof.Proof.Gen.KernelIdeal.Launch
import proofs.«148964_j33526514712649_2_alg».proof.Proof.Gen.KernelIdeal.Points
import proofs.«148964_j33526514712649_2_alg».proof.Proof.Gen.KernelIdeal.Frame
import proofs.«148964_j33526514712649_2_alg».proof.Proof.Gen.ReferenceIdeal
import proofs.«148964_j33526514712649_2_alg».proof.Proof.Gen.Pre_finite_inputs
import proofs.«148964_j33526514712649_2_alg».proof.Proof.Gen.KernelIdeal.Value
import proofs.«148964_j33526514712649_2_alg».proof.Proof.Gen.ReferenceIdeal.Run
import proofs.«148964_j33526514712649_2_alg».proof.Proof.Gen.ReferenceIdeal.Read
import proofs.«148964_j33526514712649_2_alg».proof.Proof.LstmSpec
import proofs.«148964_j33526514712649_2_alg».proof.Proof.LstmRef
import proofs.«148964_j33526514712649_2_alg».proof.Proof.LstmBlock
import proofs.«148964_j33526514712649_2_alg».proof.Proof.LstmArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the arguments, the kernel's result array ends at the LSTM cell of the arguments (the
    sixteen blocks together) and the reference's at its last stage, which is the same cell. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq]
  obtain ⟨a0, a1, a2, a3, a4, a5, a6, a7, a8, a9, a10, a11, a12, a13, a14⟩ := hagree c
  rw [a0, a1, a2, a3, a4, a5, a6, a7, a8, a9, a10, a11, a12, a13, a14]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
